-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S1024x2048 : Shape := ⟨2, ![1024, 2048]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096x1024 .f32) (main_arg1 : FVec F S1x4096x1024 .f32) (main_arg2 : FVec F S1x4096x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S1x4096x1024 : Shape := ⟨3, ![1, 4096, 1024]⟩
abbrev S1024x2048 : Shape := ⟨2, ![1024, 2048]⟩
abbrev S1024 : Shape := ⟨1, ![1024]⟩
abbrev S4096x1024 : Shape := ⟨2, ![4096, 1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 25
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2048, .f32⟩
  | .hbm, ⟨15, _⟩ => ⟨S4096, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S1x4096, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S1x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x4096x1024_S4096x1024 : S1x4096x1024.ShapeCasts S4096x1024
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  slices_S4096x2048_S4096x1024_0_0 : S4096x2048.Slices ![0, 0] S4096x1024
  bitsLt_bf16_f32 : FTy.bits .bf16 < FTy.bits .f32
  slices_S4096x2048_S4096x1024_0_1024 : S4096x2048.Slices ![0, 1024] S4096x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  shapeCasts_S4096x1024_S1x4096x1024 : S4096x1024.ShapeCasts S1x4096x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x4096x1024 : Shape := ⟨3, ![1, 4096, 1024]⟩
abbrev S1024x2048 : Shape := ⟨2, ![1024, 2048]⟩
abbrev S1024 : Shape := ⟨1, ![1024]⟩
abbrev S1x4096x2048 : Shape := ⟨3, ![1, 4096, 2048]⟩
abbrev S4096x2048 : Shape := ⟨2, ![4096, 2048]⟩
abbrev S4096 : Shape := ⟨1, ![4096]⟩
abbrev S1x4096x4096 : Shape := ⟨3, ![1, 4096, 4096]⟩
abbrev S1x1x4096 : Shape := ⟨3, ![1, 1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1x4096x2048, .f32⟩
  | .hbm, ⟨12, _⟩ => ⟨S4096x2048, .f32⟩
  | .hbm, ⟨13, _⟩ => ⟨S4096, .f32⟩
  | .hbm, ⟨14, _⟩ => ⟨S1x4096x4096, .f32⟩
  | .hbm, ⟨15, _⟩ => ⟨S1x1x4096, .f32⟩
  | .hbm, ⟨16, _⟩ => ⟨S1x4096x4096, .f32⟩
  | .hbm, ⟨17, _⟩ => ⟨S1x4096x4096, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S1x4096x1024_S1x4096x1024_S1x4096x2048_d2 : Shape.Concatenates [S1x4096x1024, S1x4096x1024] S1x4096x2048 2
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S1x4096x4096_0_1_2 : S1x1x4096.BroadcastsInDim S1x4096x4096 (![0, 1, 2] : Fin 3 → Fin S1x4096x4096.rank)
  slices_S1x4096x4096_S1x4096x1024_0_0_0 : S1x4096x4096.Slices ![0, 0, 0] S1x4096x1024
  slices_S1x4096x4096_S1x4096x1024_0_0_1024 : S1x4096x4096.Slices ![0, 0, 1024] S1x4096x1024
  slices_S1x4096x4096_S1x4096x1024_0_0_2048 : S1x4096x4096.Slices ![0, 0, 2048] S1x4096x1024
  slices_S1x4096x4096_S1x4096x1024_0_0_3072 : S1x4096x4096.Slices ![0, 0, 3072] S1x4096x1024
  bcast_S_S1x4096x1024 : S_.BroadcastsInDim S1x4096x1024 (![] : Fin 0 → Fin S1x4096x1024.rank)
  dot_S1x4096x2048_S4096x2048_S1x4096x4096_2_1_01_0_n_n_wf : DotDims.WF S1x4096x2048 S4096x2048 S1x4096x4096 [2] [1] [0, 1] [0] [] []

variable [Facts₀]

def dot_S1x4096x2048_S4096x2048_S1x4096x4096_2_1_01_0_n_n : DotDims S1x4096x2048 S4096x2048 S1x4096x4096 where
  lhsContracting := [2]
  rhsContracting := [1]
  lhsNonContracting := [0, 1]
  rhsNonContracting := [0]
  lhsBatch := []
  rhsBatch := []
  wf := dot_S1x4096x2048_S4096x2048_S1x4096x4096_2_1_01_0_n_n_wf

class Facts : Prop extends Facts₀ where

variable [Facts]
-- ==== Proof.KernelFrame.lean ====
/-
  The frame of the kernel's @main, read at the word level: ten host lines, one pipelined region over sixteen row blocks, two host
  lines.  The region's eight windows are three row-blocked inputs (the input, the hidden state and the cell state,
  256 rows of 1024 at a time), three resident inputs (the two halves of the stacked weights and the stacked bias,
  fetched once) and the two row-blocked outputs (the new hidden state and the new cell state).  At every point the
  body reads the six input buffers whole and overwrites each output buffer whole with one store, so what an output
  buffer holds after the body is one function of the six input blocks; the arrays behind the windows are what the
  host lines before the region computed, and no host line on either side writes an argument.
-/
import proofs.«106639_j712964571843_1_alg».proof.Proof.Gen.Kernel.Launch
import proofs.«106639_j712964571843_1_alg».proof.Proof.Gen.Kernel.Skeleton
import proofs.«106639_j712964571843_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the launch contents after the ten host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or not (a
    resident window's block index never moves), for any proof data over these arrays whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument bypasses the pipeline, so a run to the library's frame post leaves it as the two host lines after the
    region leave it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses -/

abbrev rX : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden state's buffer after the body: its one whole store, of the six input buffers' contents. -/
def out0_6 (x0 x1 x2 : Vec F S256x1024 .f32) (x3 x4 : Vec F S4096x1024 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- The new cell state's buffer after the body. -/
def out0_7 (x0 x1 x2 : Vec F S256x1024 .f32) (x3 x4 : Vec F S4096x1024 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- One whole store covers the buffer. -/
theorem cover_out (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The body on whole staging buffers, the inputs' at contents `x0 … x5` and the outputs' at anything, runs to a state
    holding the inputs' as they were and the outputs' at `out0_6`, `out0_7` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data on core `c`: the arrays as the region finds them; after the body at point `t` each input's buffer
    at its block and each output's at its function of the six input blocks; the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives it and every other unscoped buffer as the two lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Around

end
-- ==== Proof.KernelIdealFrame.lean ====
/-
  The frame of the idealized kernel's @main: ten host lines, one pipelined region over sixteen row blocks, two host
  lines.  The region's eight windows are three row-blocked inputs (the input, the hidden state and the cell state,
  256 rows of 1024 at a time), three resident inputs (the two halves of the stacked weights and the stacked bias,
  fetched once) and the two row-blocked outputs (the new hidden state and the new cell state).  At every point the
  body reads the six input buffers whole and overwrites each output buffer whole with one store, so what an output
  buffer holds after the body is one function of the six input blocks; the arrays behind the windows are what the
  host lines before the region computed, and no host line on either side writes an argument.
-/
import proofs.«106639_j712964571843_1_alg».proof.Proof.Gen.KernelIdeal.Launch
import proofs.«106639_j712964571843_1_alg».proof.Proof.Gen.KernelIdeal.Skeleton
import proofs.«106639_j712964571843_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the launch contents after the ten host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or not (a
    resident window's block index never moves), for any proof data over these arrays whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument bypasses the pipeline, so a run to the library's frame post leaves it as the two host lines after the
    region leave it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses -/

abbrev rX : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden state's buffer after the body: its one whole store, of the six input buffers' contents. -/
def out0_6 (x0 x1 x2 : Vec F S256x1024 .f32) (x3 x4 : Vec F S4096x1024 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- The new cell state's buffer after the body. -/
def out0_7 (x0 x1 x2 : Vec F S256x1024 .f32) (x3 x4 : Vec F S4096x1024 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- One whole store covers the buffer. -/
theorem cover_out (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The body on whole staging buffers, the inputs' at contents `x0 … x5` and the outputs' at anything, runs to a state
    holding the inputs' as they were and the outputs' at `out0_6`, `out0_7` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data on core `c`: the arrays as the region finds them; after the body at point `t` each input's buffer
    at its block and each output's at its function of the six input blocks; the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives it and every other unscoped buffer as the two lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Around

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«106639_j712964571843_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«106639_j712964571843_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«106639_j712964571843_1_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.Cell.lean ====
/-
  One step of a long short-term memory cell on the extended reals, as whole-array functions at any number of rows.

  The four gates' pre-activations are `X · Wxᵀ + H · Whᵀ + b`: the weights are stored one row per gate column, 4096
  columns in all (input, forget, candidate and output gate, 1024 columns each), `Wx` against the input's 1024
  features and `Wh` against the hidden state's.  From them and the old cell state `C`,
      c' = σ(forget) · C + σ(input) · tanh(candidate),      h' = σ(output) · tanh(c').
  Row `p` of either result depends on row `p` of `X`, `H` and `C` only, which is what lets a result computed on
  blocks of rows be read as one function of the whole arrays.  And when the two weight blocks are the left and the
  right 1024 columns of one `[4096, 2048]` matrix and `X`, `H` are laid side by side, the two contractions are one
  contraction over 2048 features: a finite sum split in two, a law of any commutative monoid, so it holds on the
  extended reals with no finiteness assumed.
-/
import proofs.«106639_j712964571843_1_alg».proof.Proof.LibTransposed

noncomputable section

namespace Cert.Cell

open Idealize.ShloMosaic Idealize.ShloMosaic.ValueIdx Cert.LayoutLib Cert.DenseLib Cert.RowBlocks Cert.TransposedLib

/-- Column `j` of gate `g` among the 4096 stacked gate columns: gate 0 is the input gate, 1 the forget gate, 2 the
    candidate, 3 the output gate. -/
def gcol (g : Fin 4) (j : Fin 1024) : Fin 4096 := ⟨g.val * 1024 + j.val, by have := g.isLt; have := j.isLt; omega⟩

/-- Feature `k` of the input among the 2048 features laid side by side, -/
def lo (k : Fin 1024) : Fin 2048 := ⟨k.val, by have := k.isLt; omega⟩
/-- and feature `k` of the hidden state. -/
def hi (k : Fin 1024) : Fin 2048 := ⟨1024 + k.val, by have := k.isLt; omega⟩

/-- The four gates' pre-activations `X · Wxᵀ + H · Whᵀ + b`. -/
def pre {M : ℕ} (X H : (⟨2, ![M, 1024]⟩ : Shape).Idx → EReal) (Wx Wh : (⟨2, ![4096, 1024]⟩ : Shape).Idx → EReal)
    (b : Fin 4096 → EReal) : (⟨2, ![M, 4096]⟩ : Shape).Idx → EReal :=
  plus (plus (mm X (tr Wx)) (mm H (tr Wh))) (rows b)

/-- The new cell state from the pre-activations `G` and the old cell state `C`. -/
def cellOf {M : ℕ} (G : (⟨2, ![M, 4096]⟩ : Shape).Idx → EReal) (C : (⟨2, ![M, 1024]⟩ : Shape).Idx → EReal) :
    (⟨2, ![M, 1024]⟩ : Shape).Idx → EReal := fun i =>
  Ideal.logistic (G (ix2 (n0 := M) (i 0) (gcol 1 (i 1)))) * C i
    + Ideal.logistic (G (ix2 (n0 := M) (i 0) (gcol 0 (i 1)))) * Ideal.tanh (G (ix2 (n0 := M) (i 0) (gcol 2 (i 1))))

/-- The new hidden state. -/
def hiddenOf {M : ℕ} (G : (⟨2, ![M, 4096]⟩ : Shape).Idx → EReal) (C : (⟨2, ![M, 1024]⟩ : Shape).Idx → EReal) :
    (⟨2, ![M, 1024]⟩ : Shape).Idx → EReal := fun i =>
  Ideal.logistic (G (ix2 (n0 := M) (i 0) (gcol 3 (i 1)))) * Ideal.tanh (cellOf G C i)

/-- The new cell state as a function of the arrays. -/
def cellArr {M : ℕ} (X H C : (⟨2, ![M, 1024]⟩ : Shape).Idx → EReal) (Wx Wh : (⟨2, ![4096, 1024]⟩ : Shape).Idx → EReal)
    (b : Fin 4096 → EReal) : (⟨2, ![M, 1024]⟩ : Shape).Idx → EReal := cellOf (pre X H Wx Wh b) C

/-- The new hidden state as a function of the arrays. -/
def hiddenArr {M : ℕ} (X H C : (⟨2, ![M, 1024]⟩ : Shape).Idx → EReal) (Wx Wh : (⟨2, ![4096, 1024]⟩ : Shape).Idx → EReal)
    (b : Fin 4096 → EReal) : (⟨2, ![M, 1024]⟩ : Shape).Idx → EReal := hiddenOf (pre X H Wx Wh b) C

/-! ## Rows are independent -/

/-- A pre-activation is determined by its row of `X` and of `H`. -/
theorem pre_eq_of_row {M M' : ℕ} (X' H' : (⟨2, ![M', 1024]⟩ : Shape).Idx → EReal) (X H : (⟨2, ![M, 1024]⟩ : Shape).Idx → EReal)
    (Wx' Wh' Wx Wh : (⟨2, ![4096, 1024]⟩ : Shape).Idx → EReal) (b' b : Fin 4096 → EReal)
    (hwx : Wx' = Wx) (hwh : Wh' = Wh) (hb : b' = b)
    (j : (⟨2, ![M', 4096]⟩ : Shape).Idx) (i : (⟨2, ![M, 4096]⟩ : Shape).Idx) (hq : (j 1).val = (i 1).val)
    (hx : ∀ k : Fin 1024, X' (ix2 (n0 := M') (j 0) k) = X (ix2 (n0 := M) (i 0) k))
    (hh : ∀ k : Fin 1024, H' (ix2 (n0 := M') (j 0) k) = H (ix2 (n0 := M) (i 0) k)) :
    pre X' H' Wx' Wh' b' j = pre X H Wx Wh b i := by
  subst hwx hwh hb
  show (mm X' (tr Wx') j + mm H' (tr Wh') j) + b' (j 1) = (mm X (tr Wx') i + mm H (tr Wh') i) + b' (i 1)
  have e : (j 1 : Fin 4096) = (i 1 : Fin 4096) := Fin.ext hq
  rw [mm_eq_of_row X' (tr Wx') X (tr Wx') j i rfl hq hx, mm_eq_of_row H' (tr Wh') H (tr Wh') j i rfl hq hh, e]

/-- The new cell state at an entry is determined by that row of the pre-activations and that entry of `C`. -/
theorem cellOf_eq {M M' : ℕ} (G' : (⟨2, ![M', 4096]⟩ : Shape).Idx → EReal) (C' : (⟨2, ![M', 1024]⟩ : Shape).Idx → EReal)
    (G : (⟨2, ![M, 4096]⟩ : Shape).Idx → EReal) (C : (⟨2, ![M, 1024]⟩ : Shape).Idx → EReal)
    (j : (⟨2, ![M', 1024]⟩ : Shape).Idx) (i : (⟨2, ![M, 1024]⟩ : Shape).Idx) (hq : (j 1).val = (i 1).val) (hc : C' j = C i)
    (hg : ∀ q : Fin 4096, G' (ix2 (n0 := M') (j 0) q) = G (ix2 (n0 := M) (i 0) q)) : cellOf G' C' j = cellOf G C i := by
  have e : (j 1 : Fin 1024) = (i 1 : Fin 1024) := Fin.ext hq
  unfold cellOf
  rw [hg, hg, hg, hc, e]

/-- The same for the new hidden state. -/
theorem hiddenOf_eq {M M' : ℕ} (G' : (⟨2, ![M', 4096]⟩ : Shape).Idx → EReal) (C' : (⟨2, ![M', 1024]⟩ : Shape).Idx → EReal)
    (G : (⟨2, ![M, 4096]⟩ : Shape).Idx → EReal) (C : (⟨2, ![M, 1024]⟩ : Shape).Idx → EReal)
    (j : (⟨2, ![M', 1024]⟩ : Shape).Idx) (i : (⟨2, ![M, 1024]⟩ : Shape).Idx) (hq : (j 1).val = (i 1).val) (hc : C' j = C i)
    (hg : ∀ q : Fin 4096, G' (ix2 (n0 := M') (j 0) q) = G (ix2 (n0 := M) (i 0) q)) : hiddenOf G' C' j = hiddenOf G C i := by
  have e : (j 1 : Fin 1024) = (i 1 : Fin 1024) := Fin.ext hq
  unfold hiddenOf
  rw [hg, cellOf_eq G' C' G C j i hq hc hg, e]

/-- Row `j 0` of the new cell state computed from arrays `X'`, `H'`, `C'` is row `i 0` of the one computed from `X`,
    `H`, `C` when those rows of the arrays agree (and the weights and the bias are the same). -/
theorem cellArr_eq_of_row {M M' : ℕ} (X' H' C' : (⟨2, ![M', 1024]⟩ : Shape).Idx → EReal) (X H C : (⟨2, ![M, 1024]⟩ : Shape).Idx → EReal)
    (Wx' Wh' Wx Wh : (⟨2, ![4096, 1024]⟩ : Shape).Idx → EReal) (b' b : Fin 4096 → EReal)
    (hwx : Wx' = Wx) (hwh : Wh' = Wh) (hb : b' = b)
    (j : (⟨2, ![M', 1024]⟩ : Shape).Idx) (i : (⟨2, ![M, 1024]⟩ : Shape).Idx) (hq : (j 1).val = (i 1).val) (hc : C' j = C i)
    (hx : ∀ k : Fin 1024, X' (ix2 (n0 := M') (j 0) k) = X (ix2 (n0 := M) (i 0) k))
    (hh : ∀ k : Fin 1024, H' (ix2 (n0 := M') (j 0) k) = H (ix2 (n0 := M) (i 0) k)) :
    cellArr X' H' C' Wx' Wh' b' j = cellArr X H C Wx Wh b i :=
  cellOf_eq _ C' _ C j i hq hc fun q =>
    pre_eq_of_row X' H' X H Wx' Wh' Wx Wh b' b hwx hwh hb (ix2 (n0 := M') (j 0) q) (ix2 (n0 := M) (i 0) q) rfl hx hh

theorem hiddenArr_eq_of_row {M M' : ℕ} (X' H' C' : (⟨2, ![M', 1024]⟩ : Shape).Idx → EReal) (X H C : (⟨2, ![M, 1024]⟩ : Shape).Idx → EReal)
    (Wx' Wh' Wx Wh : (⟨2, ![4096, 1024]⟩ : Shape).Idx → EReal) (b' b : Fin 4096 → EReal)
    (hwx : Wx' = Wx) (hwh : Wh' = Wh) (hb : b' = b)
    (j : (⟨2, ![M', 1024]⟩ : Shape).Idx) (i : (⟨2, ![M, 1024]⟩ : Shape).Idx) (hq : (j 1).val = (i 1).val) (hc : C' j = C i)
    (hx : ∀ k : Fin 1024, X' (ix2 (n0 := M') (j 0) k) = X (ix2 (n0 := M) (i 0) k))
    (hh : ∀ k : Fin 1024, H' (ix2 (n0 := M') (j 0) k) = H (ix2 (n0 := M) (i 0) k)) :
    hiddenArr X' H' C' Wx' Wh' b' j = hiddenArr X H C Wx Wh b i :=
  hiddenOf_eq _ C' _ C j i hq hc fun q =>
    pre_eq_of_row X' H' X H Wx' Wh' Wx Wh b' b hwx hwh hb (ix2 (n0 := M') (j 0) q) (ix2 (n0 := M) (i 0) q) rfl hx hh

/-! ## The arrays a program hands the cell -/

/-- A `[1, B, N]` array read as `[B, N]`. -/
def flat {B N : ℕ} {α : Type} (a : (⟨3, ![1, B, N]⟩ : Shape).Idx → α) : (⟨2, ![B, N]⟩ : Shape).Idx → α :=
  fun j => a (ix3 (0 : Fin 1) (n1 := B) (j 0) (n2 := N) (j 1))

/-- The left 1024 columns of the stacked weights: the input's. -/
def leftCols (Wc : (⟨2, ![4096, 2048]⟩ : Shape).Idx → EReal) : (⟨2, ![4096, 1024]⟩ : Shape).Idx → EReal :=
  fun j => Wc (ix2 (n0 := 4096) (j 0) (lo (j 1)))

/-- The right 1024 columns: the hidden state's. -/
def rightCols (Wc : (⟨2, ![4096, 2048]⟩ : Shape).Idx → EReal) : (⟨2, ![4096, 1024]⟩ : Shape).Idx → EReal :=
  fun j => Wc (ix2 (n0 := 4096) (j 0) (hi (j 1)))

/-- The stacked bias as a function of the gate column. -/
def vecOf (bc : (⟨1, ![4096]⟩ : Shape).Idx → EReal) : Fin 4096 → EReal := fun q => bc (ix1 q)

/-- The new cell state of the whole batch from the three state arrays, the stacked weights and the stacked bias. -/
def newCell (a0 a1 a2 : (⟨3, ![1, 4096, 1024]⟩ : Shape).Idx → EReal) (Wc : (⟨2, ![4096, 2048]⟩ : Shape).Idx → EReal)
    (bc : (⟨1, ![4096]⟩ : Shape).Idx → EReal) : (⟨3, ![1, 4096, 1024]⟩ : Shape).Idx → EReal :=
  fun i => cellArr (flat a0) (flat a1) (flat a2) (leftCols Wc) (rightCols Wc) (vecOf bc) (ix2 (n0 := 4096) (i 1) (n1 := 1024) (i 2))

/-- The new hidden state of the whole batch. -/
def newHidden (a0 a1 a2 : (⟨3, ![1, 4096, 1024]⟩ : Shape).Idx → EReal) (Wc : (⟨2, ![4096, 2048]⟩ : Shape).Idx → EReal)
    (bc : (⟨1, ![4096]⟩ : Shape).Idx → EReal) : (⟨3, ![1, 4096, 1024]⟩ : Shape).Idx → EReal :=
  fun i => hiddenArr (flat a0) (flat a1) (flat a2) (leftCols Wc) (rightCols Wc) (vecOf bc) (ix2 (n0 := 4096) (i 1) (n1 := 1024) (i 2))

/-! ## The host lines' layout operations, read as the readings above -/

/-- A `[1, B, N]` array reshaped to `[B, N]` is its flat reading. -/
theorem shapeCast_flat {B N : ℕ} {α : Type} (a : (⟨3, ![1, B, N]⟩ : Shape).Idx → α)
    (h : (⟨3, ![1, B, N]⟩ : Shape).ShapeCasts ⟨2, ![B, N]⟩) : shapeCast ⟨2, ![B, N]⟩ a h = flat a := by
  funext j
  obtain ⟨p, q, rfl⟩ : ∃ (p : Fin B) (q : Fin N), j = ix2 p q := ⟨j 0, j 1, eq_ix2 j⟩
  exact shapeCast_apply a h (ix2 p q) (ix3 (0 : Fin 1) p q) (by
    rw [Shape.rowMajor_val_three, Shape.rowMajor_val_two]
    show ((0 : ℕ) * B + p.val) * N + q.val = p.val * N + q.val
    rw [Nat.zero_mul, Nat.zero_add])

/-- A `[B, N]` array reshaped to `[1, B, N]` reads, at `(u, p, q)`, the array at `(p, q)`. -/
theorem shapeCast_unflat_apply {B N : ℕ} {α : Type} (Y : (⟨2, ![B, N]⟩ : Shape).Idx → α)
    (h : (⟨2, ![B, N]⟩ : Shape).ShapeCasts ⟨3, ![1, B, N]⟩) (i : (⟨3, ![1, B, N]⟩ : Shape).Idx) :
    shapeCast ⟨3, ![1, B, N]⟩ Y h i = Y (ix2 (n0 := B) (i 1) (n1 := N) (i 2)) :=
  shapeCast_apply Y h i (ix2 (n0 := B) (i 1) (n1 := N) (i 2)) (by
    have h0 : (i 0).val = 0 := Nat.lt_one_iff.mp (i 0).isLt
    rw [Shape.rowMajor_val_three, Shape.rowMajor_val_two]
    show (i 1).val * N + (i 2).val = ((i 0).val * B + (i 1).val) * N + (i 2).val
    rw [h0, Nat.zero_mul, Nat.zero_add])

/-- The slice of the stacked weights' first 1024 columns is their left columns, -/
theorem slice_leftCols (Wc : (⟨2, ![4096, 2048]⟩ : Shape).Idx → EReal)
    (h : (⟨2, ![4096, 2048]⟩ : Shape).Slices ![0, 0] ⟨2, ![4096, 1024]⟩) :
    extractStridedSlice ⟨2, ![4096, 1024]⟩ ![0, 0] Wc h = leftCols Wc := by
  funext j
  obtain ⟨q, k, rfl⟩ : ∃ (q : Fin 4096) (k : Fin 1024), j = ix2 q k := ⟨j 0, j 1, eq_ix2 j⟩
  exact extractStridedSlice_apply ![0, 0] Wc h (ix2 q k) (ix2 q (lo k)) (fun a => by
    match a with
    | ⟨0, _⟩ => show q.val = 0 + q.val; omega
    | ⟨1, _⟩ => show k.val = 0 + k.val; omega)

/-- and the slice of the last 1024 columns their right columns. -/
theorem slice_rightCols (Wc : (⟨2, ![4096, 2048]⟩ : Shape).Idx → EReal)
    (h : (⟨2, ![4096, 2048]⟩ : Shape).Slices ![0, 1024] ⟨2, ![4096, 1024]⟩) :
    extractStridedSlice ⟨2, ![4096, 1024]⟩ ![0, 1024] Wc h = rightCols Wc := by
  funext j
  obtain ⟨q, k, rfl⟩ : ∃ (q : Fin 4096) (k : Fin 1024), j = ix2 q k := ⟨j 0, j 1, eq_ix2 j⟩
  exact extractStridedSlice_apply ![0, 1024] Wc h (ix2 q k) (ix2 q (hi k)) (fun a => by
    match a with
    | ⟨0, _⟩ => show q.val = 0 + q.val; omega
    | ⟨1, _⟩ => show 1024 + k.val = 1024 + k.val; rfl)

/-- The stacked bias recast as one row, read along that row, is the stacked bias. -/
theorem biasRow_vecOf (bc : (⟨1, ![4096]⟩ : Shape).Idx → EReal) (h : (⟨1, ![4096]⟩ : Shape).ShapeCasts ⟨2, ![1, 4096]⟩) :
    (fun q : Fin 4096 => shapeCast ⟨2, ![1, 4096]⟩ bc h (ix2 (0 : Fin 1) q)) = vecOf bc :=
  funext fun q => shapeCast_vecRow_apply bc h (0 : Fin 1) q

/-! ## The stacked parameters -/

theorem stackW_ok : Shape.Concatenates [(⟨2, ![1024, 2048]⟩ : Shape), ⟨2, ![1024, 2048]⟩, ⟨2, ![1024, 2048]⟩, ⟨2, ![1024, 2048]⟩] ⟨2, ![4096, 2048]⟩ 0 := by decide
theorem stackB_ok : Shape.Concatenates [(⟨1, ![1024]⟩ : Shape), ⟨1, ![1024]⟩, ⟨1, ![1024]⟩, ⟨1, ![1024]⟩] ⟨1, ![4096]⟩ 0 := by decide

/-- The four gates' weight matrices stacked one above the other (input, forget, candidate, output). -/
def stackW (w0 w1 w2 w3 : (⟨2, ![1024, 2048]⟩ : Shape).Idx → EReal) : (⟨2, ![4096, 2048]⟩ : Shape).Idx → EReal :=
  concatenate ⟨2, ![4096, 2048]⟩ 0 [⟨⟨2, ![1024, 2048]⟩, w0⟩, ⟨⟨2, ![1024, 2048]⟩, w1⟩, ⟨⟨2, ![1024, 2048]⟩, w2⟩, ⟨⟨2, ![1024, 2048]⟩, w3⟩] stackW_ok

/-- The four gates' bias vectors stacked end to end. -/
def stackB (b0 b1 b2 b3 : (⟨1, ![1024]⟩ : Shape).Idx → EReal) : (⟨1, ![4096]⟩ : Shape).Idx → EReal :=
  concatenate ⟨1, ![4096]⟩ 0 [⟨⟨1, ![1024]⟩, b0⟩, ⟨⟨1, ![1024]⟩, b1⟩, ⟨⟨1, ![1024]⟩, b2⟩, ⟨⟨1, ![1024]⟩, b3⟩] stackB_ok

/-! ## One contraction over the features laid side by side -/

/-- A sum over 2048 features is the sum over the first 1024 plus the sum over the last 1024. -/
theorem sum_split (f : Fin 2048 → EReal) : ∑ k : Fin 2048, f k = ∑ k : Fin 1024, f (lo k) + ∑ k : Fin 1024, f (hi k) :=
  Fin.sum_univ_add (M := EReal) (a := 1024) (b := 1024) f

/-- With the two state arrays laid side by side as `xh` (the input's features first), the pre-activation of row `p`
    and gate column `q` is ONE contraction of `xh` against row `q` of the stacked weights, plus the bias. -/
theorem pre_flat_apply (a0 a1 : (⟨3, ![1, 4096, 1024]⟩ : Shape).Idx → EReal) (Wc : (⟨2, ![4096, 2048]⟩ : Shape).Idx → EReal)
    (bc : (⟨1, ![4096]⟩ : Shape).Idx → EReal) (p q : Fin 4096) (xh : Fin 2048 → EReal)
    (hl : ∀ k : Fin 1024, xh (lo k) = a0 (ix3 (0 : Fin 1) p k)) (hr : ∀ k : Fin 1024, xh (hi k) = a1 (ix3 (0 : Fin 1) p k)) :
    (∑ k : Fin 2048, xh k * Wc (ix2 q k)) + bc (ix1 q)
      = pre (flat a0) (flat a1) (leftCols Wc) (rightCols Wc) (vecOf bc) (ix2 p q) := by
  rw [sum_split]
  show _ = ((∑ k : Fin 1024, a0 (ix3 (0 : Fin 1) p k) * Wc (ix2 q (lo k))) + ∑ k : Fin 1024, a1 (ix3 (0 : Fin 1) p k) * Wc (ix2 q (hi k))) + bc (ix1 q)
  simp only [hl, hr]

end Cert.Cell

end
-- ==== Proof.KernelBlocks.lean ====
/-
  The arrays the region finds and the blocks its windows cut from them, on the extended reals.

  The ten host lines before the region leave: the three state arrays reshaped from `[1, 4096, 1024]` to
  `[4096, 1024]`; the left and the right 1024 columns of the four weight matrices stacked one above the other
  (narrowed to a shorter float format, which is the identity here); and the four bias vectors stacked end to end,
  as one row.  At grid point `t` the row-blocked windows (the three states and the two results) hold rows
  `256 t … 256 t + 255` of their arrays, all 1024 columns; the resident windows hold their whole arrays.
-/
import proofs.«106639_j712964571843_1_alg».proof.Proof.KernelIdealFrame
import proofs.«106639_j712964571843_1_alg».proof.Proof.Cell
import Idealize.ShloMosaic.Lib.StableHlo.Run

set_option maxRecDepth 16384

noncomputable section

namespace Cert.KernelIdeal.Blocks

open Cert.KernelIdeal.Gen Cert.KernelIdeal.Around
open Idealize.ShloMosaic Idealize.ShloMosaic.TcCoe Idealize.ShloMosaic.ValueIdx Idealize.SL.Sem Idealize.ShloMosaic.StableHlo
open Cert.Cell

variable (m : (ℓ : Loc nD τ sig) → Buf (Elt Ideal) ℓ)

/-! ## The arguments, and the stacked parameters both programs build from them -/

abbrev a0 (c : Dev nD) : S1x4096x1024.Idx → EReal := m ((c : Thread nD τ).loc main_arg0)
abbrev a1 (c : Dev nD) : S1x4096x1024.Idx → EReal := m ((c : Thread nD τ).loc main_arg1)
abbrev a2 (c : Dev nD) : S1x4096x1024.Idx → EReal := m ((c : Thread nD τ).loc main_arg2)
abbrev Wc (c : Dev nD) : S4096x2048.Idx → EReal :=
  stackW (m ((c : Thread nD τ).loc main_arg3)) (m ((c : Thread nD τ).loc main_arg5)) (m ((c : Thread nD τ).loc main_arg7)) (m ((c : Thread nD τ).loc main_arg9))
abbrev bc (c : Dev nD) : S4096.Idx → EReal :=
  stackB (m ((c : Thread nD τ).loc main_arg4)) (m ((c : Thread nD τ).loc main_arg6)) (m ((c : Thread nD τ).loc main_arg8)) (m ((c : Thread nD τ).loc main_arg10))

/-! ## The arrays at the region's entry -/

theorem V_v0 (c : Dev nD) : (V m c main_v0 : S4096x1024.Idx → EReal) = flat (a0 m c) := by
  have e : (V m c main_v0 : S4096x1024.Idx → EReal) = shapeCast S4096x1024 (a0 m c) shapeCasts_S1x4096x1024_S4096x1024 := by
    show StableHlo.after hostOps0 (fun b => m (c, b)) (Proc.devRef .tc main_v0) = _
    after_results
    rfl
  rw [e, shapeCast_flat]

theorem V_v1 (c : Dev nD) : (V m c main_v1 : S4096x1024.Idx → EReal) = flat (a1 m c) := by
  have e : (V m c main_v1 : S4096x1024.Idx → EReal) = shapeCast S4096x1024 (a1 m c) shapeCasts_S1x4096x1024_S4096x1024 := by
    show StableHlo.after hostOps0 (fun b => m (c, b)) (Proc.devRef .tc main_v1) = _
    after_results
    rfl
  rw [e, shapeCast_flat]

theorem V_v2 (c : Dev nD) : (V m c main_v2 : S4096x1024.Idx → EReal) = flat (a2 m c) := by
  have e : (V m c main_v2 : S4096x1024.Idx → EReal) = shapeCast S4096x1024 (a2 m c) shapeCasts_S1x4096x1024_S4096x1024 := by
    show StableHlo.after hostOps0 (fun b => m (c, b)) (Proc.devRef .tc main_v2) = _
    after_results
    rfl
  rw [e, shapeCast_flat]

theorem V_v6 (c : Dev nD) : (V m c main_v6 : S4096x1024.Idx → EReal) = leftCols (Wc m c) := by
  have e : (V m c main_v6 : S4096x1024.Idx → EReal)
      = truncf (F := Ideal) .bf16 (extractStridedSlice S4096x1024 ![0, 0] (Wc m c) slices_S4096x2048_S4096x1024_0_0) bitsLt_bf16_f32 := by
    show StableHlo.after hostOps0 (fun b => m (c, b)) (Proc.devRef .tc main_v6) = _
    after_results
    rfl
  rw [e]
  show extractStridedSlice S4096x1024 ![0, 0] (Wc m c) slices_S4096x2048_S4096x1024_0_0 = leftCols (Wc m c)
  exact slice_leftCols (Wc m c) _

theorem V_v8 (c : Dev nD) : (V m c main_v8 : S4096x1024.Idx → EReal) = rightCols (Wc m c) := by
  have e : (V m c main_v8 : S4096x1024.Idx → EReal)
      = truncf (F := Ideal) .bf16 (extractStridedSlice S4096x1024 ![0, 1024] (Wc m c) slices_S4096x2048_S4096x1024_0_1024) bitsLt_bf16_f32 := by
    show StableHlo.after hostOps0 (fun b => m (c, b)) (Proc.devRef .tc main_v8) = _
    after_results
    rfl
  rw [e]
  show extractStridedSlice S4096x1024 ![0, 1024] (Wc m c) slices_S4096x2048_S4096x1024_0_1024 = rightCols (Wc m c)
  exact slice_rightCols (Wc m c) _

theorem V_v9 (c : Dev nD) : (fun q : Fin 4096 => (V m c main_v9 : S1x4096.Idx → EReal) (ix2 (0 : Fin 1) q)) = vecOf (bc m c) := by
  have e : (V m c main_v9 : S1x4096.Idx → EReal) = shapeCast S1x4096 (bc m c) shapeCasts_S4096_S1x4096 := by
    show StableHlo.after hostOps0 (fun b => m (c, b)) (Proc.devRef .tc main_v9) = _
    after_results
    rfl
  rw [e]
  exact biasRow_vecOf (bc m c) _

/-! ## The windows' blocks -/

theorem t_lt (t : Fin cfg0.N) : t.val < 16 := lt_of_lt_of_eq t.isLt N_0

/-- Row `256 t + y₀`, column `y₁` of a `[4096, 1024]` array: where entry `y` of point `t`'s block of rows sits. -/
def rowAt (t : Fin cfg0.N) (y : S256x1024.Idx) : S4096x1024.Idx :=
  ix2 (n0 := 4096) ⟨t.val * 256 + (y 0).val, by have := t_lt t; have h : (y 0).val < 256 := (y 0).isLt; omega⟩ (n1 := 1024) (y 1)

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows6 : ∀ t : Fin cfg0.N, win0_6.index t (0 : Fin 2) = t.val ∧ win0_6.index t (1 : Fin 2) = 0 :=
  (by decide +kernel : ∀ t : Fin grid0.N, _)
theorem idx_rows7 : ∀ t : Fin cfg0.N, win0_7.index t (0 : Fin 2) = t.val ∧ win0_7.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)

/-- Point `t`'s block of window 0 sits at rows `256 t …` of its array. -/
theorem emb0 (t : Fin cfg0.N) (y : S256x1024.Idx) : ((cfg0.win 0).blk t).view.emb y = rowAt t y := by
  obtain ⟨e0, e1⟩ := idx_rows0 t
  funext a; apply Fin.ext
  match a with
  | ⟨0, _⟩ => show win0_0.index t (0 : Fin 2) * 256 + 1 * (y 0).val = t.val * 256 + (y 0).val; omega
  | ⟨1, _⟩ => show win0_0.index t (1 : Fin 2) * 1024 + 1 * (y 1).val = (y 1).val; omega

/-- Point `t`'s block of window 1 sits at rows `256 t …` of its array. -/
theorem emb1 (t : Fin cfg0.N) (y : S256x1024.Idx) : ((cfg0.win 1).blk t).view.emb y = rowAt t y := by
  obtain ⟨e0, e1⟩ := idx_rows1 t
  funext a; apply Fin.ext
  match a with
  | ⟨0, _⟩ => show win0_1.index t (0 : Fin 2) * 256 + 1 * (y 0).val = t.val * 256 + (y 0).val; omega
  | ⟨1, _⟩ => show win0_1.index t (1 : Fin 2) * 1024 + 1 * (y 1).val = (y 1).val; omega

/-- Point `t`'s block of window 2 sits at rows `256 t …` of its array. -/
theorem emb2 (t : Fin cfg0.N) (y : S256x1024.Idx) : ((cfg0.win 2).blk t).view.emb y = rowAt t y := by
  obtain ⟨e0, e1⟩ := idx_rows2 t
  funext a; apply Fin.ext
  match a with
  | ⟨0, _⟩ => show win0_2.index t (0 : Fin 2) * 256 + 1 * (y 0).val = t.val * 256 + (y 0).val; omega
  | ⟨1, _⟩ => show win0_2.index t (1 : Fin 2) * 1024 + 1 * (y 1).val = (y 1).val; omega

/-- Point `t`'s block of window 6 sits at rows `256 t …` of its array. -/
theorem emb6 (t : Fin cfg0.N) (y : S256x1024.Idx) : ((cfg0.win 6).blk t).view.emb y = rowAt t y := by
  obtain ⟨e0, e1⟩ := idx_rows6 t
  funext a; apply Fin.ext
  match a with
  | ⟨0, _⟩ => show win0_6.index t (0 : Fin 2) * 256 + 1 * (y 0).val = t.val * 256 + (y 0).val; omega
  | ⟨1, _⟩ => show win0_6.index t (1 : Fin 2) * 1024 + 1 * (y 1).val = (y 1).val; omega

/-- Point `t`'s block of window 7 sits at rows `256 t …` of its array. -/
theorem emb7 (t : Fin cfg0.N) (y : S256x1024.Idx) : ((cfg0.win 7).blk t).view.emb y = rowAt t y := by
  obtain ⟨e0, e1⟩ := idx_rows7 t
  funext a; apply Fin.ext
  match a with
  | ⟨0, _⟩ => show win0_7.index t (0 : Fin 2) * 256 + 1 * (y 0).val = t.val * 256 + (y 0).val; omega
  | ⟨1, _⟩ => show win0_7.index t (1 : Fin 2) * 1024 + 1 * (y 1).val = (y 1).val; omega

/-- Window 3's block is its whole array at every point. -/
theorem emb3 (t : Fin cfg0.N) (y : S4096x1024.Idx) : ((cfg0.win 3).blk t).view.emb y = y := by
  obtain ⟨e0, e1⟩ := idx_whole3 t
  funext a; apply Fin.ext
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- Window 4's block is its whole array at every point. -/
theorem emb4 (t : Fin cfg0.N) (y : S4096x1024.Idx) : ((cfg0.win 4).blk t).view.emb y = y := by
  obtain ⟨e0, e1⟩ := idx_whole4 t
  funext a; apply Fin.ext
  match a with
  | ⟨0, _⟩ => show win0_4.index t (0 : Fin 2) * 4096 + 1 * (y 0).val = (y 0).val; omega
  | ⟨1, _⟩ => show win0_4.index t (1 : Fin 2) * 1024 + 1 * (y 1).val = (y 1).val; omega

/-- Window 5's block is its whole array at every point. -/
theorem emb5 (t : Fin cfg0.N) (y : S1x4096.Idx) : ((cfg0.win 5).blk t).view.emb y = y := by
  obtain ⟨e0, e1⟩ := idx_whole5 t
  funext a; apply Fin.ext
  match a with
  | ⟨0, _⟩ => show win0_5.index t (0 : Fin 2) * 1 + 1 * (y 0).val = (y 0).val; omega
  | ⟨1, _⟩ => show win0_5.index t (1 : Fin 2) * 4096 + 1 * (y 1).val = (y 1).val; omega

end Cert.KernelIdeal.Blocks

end
-- ==== Proof.KernelPayload.lean ====
/-
  What the kernel body computes on one block of 256 rows, read on the extended reals: the 256 × 4096 array it slices
  its gates from is the cell's pre-activation array of the block's rows of the input and the hidden state (a change of
  float format is the identity, a product accumulated into zero is the product, the one-row bias is laid along every
  row), and its two stored values are the new cell state and the new hidden state of those rows.
-/
import proofs.«106639_j712964571843_1_alg».proof.Proof.Gen.KernelIdeal.Skeleton
import proofs.«106639_j712964571843_1_alg».proof.Proof.Cell

noncomputable section

namespace Cert.KernelIdeal.Pay

open Cert.KernelIdeal.Gen
open Idealize.ShloMosaic Idealize.ShloMosaic.ValueIdx Cert.LayoutLib Cert.DenseLib Cert.RowBlocks Cert.TransposedLib Cert.Cell

/-- The slice of 1024 columns starting at gate `g`'s first column, read at `(p, j)`, is the array at gate `g`'s column `j`. -/
theorem slice_gate {M : ℕ} {α : Type} (G : (⟨2, ![M, 4096]⟩ : Shape).Idx → α) (g : Fin 4) (o : ℕ) (ho : o = g.val * 1024)
    (h : (⟨2, ![M, 4096]⟩ : Shape).Slices ![0, o] ⟨2, ![M, 1024]⟩) (p : Fin M) (j : Fin 1024) :
    extractStridedSlice ⟨2, ![M, 1024]⟩ ![0, o] G h (ix2 p j) = G (ix2 p (gcol g j)) :=
  extractStridedSlice_apply ![0, o] G h (ix2 p j) (ix2 p (gcol g j)) (fun a => by
    match a with
    | ⟨0, _⟩ => show p.val = 0 + p.val; omega
    | ⟨1, _⟩ => show g.val * 1024 + j.val = o + j.val; omega)

/-- The body's two products contract both operands along their last axis. -/
theorem dims_eq : dot_S256x1024_S4096x1024_S256x4096_1_1_0_0_n_n = DotDims.transposedRhs 256 1024 4096 := rfl

/-- The one-row bias block as a function of the gate column. -/
abbrev biasRow (v13 : Vec Ideal S1x4096 .f32) : Fin 4096 → EReal := fun q => v13 (ix2 (0 : Fin 1) q)

/-- The array the gates are sliced from is the block's pre-activation array. -/
theorem pay1_eq (v0 v3 : Vec Ideal S256x1024 .f32) (v6 v8 : Vec Ideal S4096x1024 .bf16) (v13 : Vec Ideal S1x4096 .f32) :
    k0_pay1 (F := Ideal) v0 v3 v6 v8 v13 = pre v0 v3 v6 v8 (biasRow v13) := by
  unfold k0_pay1 pre
  dsimp only
  rw [shapeCast_self, shapeCast_self, shapeCast_self, shapeCast_self, shapeCast_self,
    matmul_transposedRhs_eq_mm dot_S256x1024_S4096x1024_S256x4096_1_1_0_0_n_n dims_eq,
    matmul_transposedRhs_eq_mm dot_S256x1024_S4096x1024_S256x4096_1_1_0_0_n_n dims_eq, broadcastTo_eq_rows]
  rfl

/-- The value stored into the cell-state output is the block's new cell state. -/
theorem pay2_eq (v0 v3 : Vec Ideal S256x1024 .f32) (v6 v8 : Vec Ideal S4096x1024 .bf16) (v13 : Vec Ideal S1x4096 .f32)
    (v25 : Vec Ideal S256x1024 .f32) :
    k0_pay2 (F := Ideal) v0 v3 v6 v8 v13 v25 = cellArr v0 v3 v25 v6 v8 (biasRow v13) := by
  funext i
  obtain ⟨p, j, rfl⟩ : ∃ (p : Fin 256) (j : Fin 1024), i = ix2 p j := ⟨i 0, i 1, eq_ix2 i⟩
  unfold k0_pay2
  rw [pay1_eq, shapeCast_self]
  show Ideal.logistic (extractStridedSlice S256x1024 ![0, 1024] (pre v0 v3 v6 v8 (biasRow v13)) slices_S256x4096_o0_1024_S256x1024 (ix2 p j)) * v25 (ix2 p j)
      + Ideal.logistic (extractStridedSlice S256x1024 ![0, 0] (pre v0 v3 v6 v8 (biasRow v13)) slices_S256x4096_o0_0_S256x1024 (ix2 p j))
        * Ideal.tanh (extractStridedSlice S256x1024 ![0, 2048] (pre v0 v3 v6 v8 (biasRow v13)) slices_S256x4096_o0_2048_S256x1024 (ix2 p j))
    = _
  rw [slice_gate _ 1 1024 rfl, slice_gate _ 0 0 rfl, slice_gate _ 2 2048 rfl]
  rfl

/-- The value stored into the hidden-state output is the block's new hidden state. -/
theorem pay3_eq (v0 v3 : Vec Ideal S256x1024 .f32) (v6 v8 : Vec Ideal S4096x1024 .bf16) (v13 : Vec Ideal S1x4096 .f32)
    (v25 : Vec Ideal S256x1024 .f32) :
    k0_pay3 (F := Ideal) v0 v3 v6 v8 v13 v25 = hiddenArr v0 v3 v25 v6 v8 (biasRow v13) := by
  funext i
  obtain ⟨p, j, rfl⟩ : ∃ (p : Fin 256) (j : Fin 1024), i = ix2 p j := ⟨i 0, i 1, eq_ix2 i⟩
  unfold k0_pay3
  rw [pay2_eq, pay1_eq]
  show Ideal.logistic (extractStridedSlice S256x1024 ![0, 3072] (pre v0 v3 v6 v8 (biasRow v13)) slices_S256x4096_o0_3072_S256x1024 (ix2 p j))
      * Ideal.tanh (cellArr v0 v3 v25 v6 v8 (biasRow v13) (ix2 p j)) = _
  rw [slice_gate _ 3 3072 rfl]
  rfl

end Cert.KernelIdeal.Pay

end
-- ==== Proof.KernelValue.lean ====
/-
  The idealized kernel's two results as functions of its arguments.

  What a grid point writes back through an output window is the cell's new hidden state (or new cell state) of the
  256 rows it was handed; since a row of either depends on that row of the three state arrays only, this is the
  point's block of rows of the same function of the WHOLE arrays.  The sixteen blocks tile the 4096 rows, so after
  the run each output array is that function everywhere.  The two host lines after the region reshape the arrays to
  `[1, 4096, 1024]`; with the entry arrays read back to the arguments, the results are the specification's
  `newHidden` and `newCell` of the three state arguments, the stacked weights and the stacked bias.
-/
import proofs.«106639_j712964571843_1_alg».proof.Proof.KernelBlocks
import proofs.«106639_j712964571843_1_alg».proof.Proof.KernelPayload
import Idealize.ShloMosaic.Lib.Pipeline.Value

set_option maxRecDepth 16384

noncomputable section

namespace Cert.KernelIdeal.Whole

open Cert.KernelIdeal.Gen Cert.KernelIdeal.Around Cert.KernelIdeal.Pay Cert.KernelIdeal.Blocks
open Idealize.ShloMosaic Idealize.ShloMosaic.TcCoe Idealize.ShloMosaic.ValueIdx Idealize.SL.Sem Idealize.ShloMosaic.StableHlo
open Idealize.ShloMosaic.Pipeline (Dat)
open Cert.Cell

variable (m : (ℓ : Loc nD τ sig) → Buf (Elt Ideal) ℓ) (ρ : Dev nD → PrngReg)

theorem hz : (![0, 0] : Fin 2 → Nat) = fun _ => 0 := funext fun a => by fin_cases a <;> rfl

/-! ## The whole arrays the cell is applied to -/

abbrev Xc (c : Dev nD) : S4096x1024.Idx → EReal := V m c main_v0
abbrev Hc (c : Dev nD) : S4096x1024.Idx → EReal := V m c main_v1
abbrev Cc (c : Dev nD) : S4096x1024.Idx → EReal := V m c main_v2
abbrev Wxc (c : Dev nD) : S4096x1024.Idx → EReal := V m c main_v6
abbrev Whc (c : Dev nD) : S4096x1024.Idx → EReal := V m c main_v8
abbrev Bc (c : Dev nD) : Fin 4096 → EReal := fun q => (V m c main_v9 : S1x4096.Idx → EReal) (ix2 (0 : Fin 1) q)

/-! ## A point's blocks are rows of the whole arrays -/

theorem blk_x (c : Dev nD) (t : Fin cfg0.N) (j : S256x1024.Idx) (k : Fin 1024) :
    iblk m c 0 t (ix2 (n0 := 256) (j 0) k) = Xc m c (ix2 (n0 := 4096) ((rowAt t j) 0) k) :=
  congrArg (V m c main_v0 : S4096x1024.Idx → EReal) (emb0 t (ix2 (n0 := 256) (j 0) k))

theorem blk_h (c : Dev nD) (t : Fin cfg0.N) (j : S256x1024.Idx) (k : Fin 1024) :
    iblk m c 1 t (ix2 (n0 := 256) (j 0) k) = Hc m c (ix2 (n0 := 4096) ((rowAt t j) 0) k) :=
  congrArg (V m c main_v1 : S4096x1024.Idx → EReal) (emb1 t (ix2 (n0 := 256) (j 0) k))

theorem blk_c (c : Dev nD) (t : Fin cfg0.N) (j : S256x1024.Idx) : iblk m c 2 t j = Cc m c (rowAt t j) :=
  congrArg (V m c main_v2 : S4096x1024.Idx → EReal) (emb2 t j)

theorem blk_wx (c : Dev nD) (t : Fin cfg0.N) : (iblk m c 3 t : S4096x1024.Idx → EReal) = Wxc m c :=
  funext fun y => congrArg (V m c main_v6 : S4096x1024.Idx → EReal) (emb3 t y)

theorem blk_wh (c : Dev nD) (t : Fin cfg0.N) : (iblk m c 4 t : S4096x1024.Idx → EReal) = Whc m c :=
  funext fun y => congrArg (V m c main_v8 : S4096x1024.Idx → EReal) (emb4 t y)

theorem blk_b (c : Dev nD) (t : Fin cfg0.N) : biasRow (iblk m c 5 t) = Bc m c :=
  funext fun q => congrArg (V m c main_v9 : S1x4096.Idx → EReal) (emb5 t (ix2 (0 : Fin 1) q))

/-! ## The new hidden state's array -/

/-- What point `t` writes back through window 6 is block `t` of the new hidden state of the whole arrays. -/
theorem flushed6_eq (c : Dev nD) (t : Fin cfg0.N) :
    (dats m 0 c).flushed 6 t = ((cfg0.win 6).blk t).view.read (Elt Ideal) (hiddenArr (Xc m c) (Hc m c) (Cc m c) (Wxc m c) (Whc m c) (Bc m c)) := by
  show (cfg0.win 6).cut (grid0.coords t) ((dats m 0 c).after 6 t) = _
  rw [after0_6]
  unfold out0_6
  rw [View.canon_unit_zero hz]
  simp only [View.ld_unit_zero (S := S256x1024) hz, View.ld_unit_zero (S := S4096x1024) hz, View.ld_unit_zero (S := S1x4096) hz]
  rw [pay3_eq]
  funext j
  show hiddenArr (iblk m c 0 t) (iblk m c 1 t) (iblk m c 2 t) (iblk m c 3 t) (iblk m c 4 t) (biasRow (iblk m c 5 t)) j
     = hiddenArr (Xc m c) (Hc m c) (Cc m c) (Wxc m c) (Whc m c) (Bc m c) (((cfg0.win 6).blk t).view.emb j)
  rw [emb6]
  exact hiddenArr_eq_of_row _ _ _ _ _ _ _ _ _ _ _ _ (blk_wx m c t) (blk_wh m c t) (blk_b m c t) j (rowAt t j) rfl
    (blk_c m c t j) (blk_x m c t j) (blk_h m c t j)

/-- An index of the array is in point `t`'s block of window 6 iff each coordinate is in the block's range. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- Row `r` of the array is written back at point `r / 256`: the sixteen blocks of rows tile it. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : (i 0).val / 256 < cfg0.N := by show (i 0).val / 256 < grid0.N; rw [N_0]; omega
  obtain ⟨e0, e1⟩ := idx_rows6 ⟨(i 0).val / 256, hN⟩
  have e0' : win0_6.index ⟨(i 0).val / 256, hN⟩ (0 : Fin 2) = (i 0).val / 256 := e0
  refine ⟨⟨(i 0).val / 256, hN⟩, flush0_6 _, ?_⟩
  rw [mem_blk6]
  intro a
  match a with
  | ⟨0, _⟩ => show win0_6.index ⟨(i 0).val / 256, hN⟩ (0 : Fin 2) * 256 ≤ (i 0).val ∧ (i 0).val < win0_6.index ⟨(i 0).val / 256, hN⟩ (0 : Fin 2) * 256 + 256; omega
  | ⟨1, _⟩ => show win0_6.index ⟨(i 0).val / 256, hN⟩ (1 : Fin 2) * 1024 ≤ (i 1).val ∧ (i 1).val < win0_6.index ⟨(i 0).val / 256, hN⟩ (1 : Fin 2) * 1024 + 1024; omega

/-- The array behind window 6 after the run. -/
theorem final6 (c : Dev nD) : (dats m 0 c).arrAt 6 cfg0.N = hiddenArr (Xc m c) (Hc m c) (Cc m c) (Wxc m c) (Whc m c) (Bc m c) :=
  (dats m 0 c).arrAt_eq_of_cover 6 _ (fun t _ => flushed6_eq m c t) cover6

/-! ## The new cell state's array -/

/-- What point `t` writes back through window 7 is block `t` of the new cell state of the whole arrays. -/
theorem flushed7_eq (c : Dev nD) (t : Fin cfg0.N) :
    (dats m 0 c).flushed 7 t = ((cfg0.win 7).blk t).view.read (Elt Ideal) (cellArr (Xc m c) (Hc m c) (Cc m c) (Wxc m c) (Whc m c) (Bc m c)) := by
  show (cfg0.win 7).cut (grid0.coords t) ((dats m 0 c).after 7 t) = _
  rw [after0_7]
  unfold out0_7
  rw [View.canon_unit_zero hz]
  simp only [View.ld_unit_zero (S := S256x1024) hz, View.ld_unit_zero (S := S4096x1024) hz, View.ld_unit_zero (S := S1x4096) hz]
  rw [pay2_eq]
  funext j
  show cellArr (iblk m c 0 t) (iblk m c 1 t) (iblk m c 2 t) (iblk m c 3 t) (iblk m c 4 t) (biasRow (iblk m c 5 t)) j
     = cellArr (Xc m c) (Hc m c) (Cc m c) (Wxc m c) (Whc m c) (Bc m c) (((cfg0.win 7).blk t).view.emb j)
  rw [emb7]
  exact cellArr_eq_of_row _ _ _ _ _ _ _ _ _ _ _ _ (blk_wx m c t) (blk_wh m c t) (blk_b m c t) j (rowAt t j) rfl
    (blk_c m c t j) (blk_x m c t j) (blk_h m c t j)

/-- An index of the array is in point `t`'s block of window 7 iff each coordinate is in the block's range. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- Row `r` of the array is written back at point `r / 256`: the sixteen blocks of rows tile it. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : (i 0).val / 256 < cfg0.N := by show (i 0).val / 256 < grid0.N; rw [N_0]; omega
  obtain ⟨e0, e1⟩ := idx_rows7 ⟨(i 0).val / 256, hN⟩
  have e0' : win0_7.index ⟨(i 0).val / 256, hN⟩ (0 : Fin 2) = (i 0).val / 256 := e0
  refine ⟨⟨(i 0).val / 256, hN⟩, flush0_7 _, ?_⟩
  rw [mem_blk7]
  intro a
  match a with
  | ⟨0, _⟩ => show win0_7.index ⟨(i 0).val / 256, hN⟩ (0 : Fin 2) * 256 ≤ (i 0).val ∧ (i 0).val < win0_7.index ⟨(i 0).val / 256, hN⟩ (0 : Fin 2) * 256 + 256; omega
  | ⟨1, _⟩ => show win0_7.index ⟨(i 0).val / 256, hN⟩ (1 : Fin 2) * 1024 ≤ (i 1).val ∧ (i 1).val < win0_7.index ⟨(i 0).val / 256, hN⟩ (1 : Fin 2) * 1024 + 1024; omega

/-- The array behind window 7 after the run. -/
theorem final7 (c : Dev nD) : (dats m 0 c).arrAt 7 cfg0.N = cellArr (Xc m c) (Hc m c) (Cc m c) (Wxc m c) (Whc m c) (Bc m c) :=
  (dats m 0 c).arrAt_eq_of_cover 7 _ (fun t _ => flushed7_eq m c t) cover7

/-! ## Through the two host lines after the region -/

theorem tail_v11 (c : Dev nD) : Pipeline.afterTail₀ cfgs (dats m) 0 (V0 m) [hostOps1] c main_v11
    = shapeCast S1x4096x1024 ((dats m 0 c).arrAt 6 cfg0.N) shapeCasts_S4096x1024_S1x4096x1024 := by
  unfold Pipeline.afterTail₀
  show StableHlo.after hostOps1 _ (Proc.devRef .tc main_v11) = _
  after_results
  exact congrArg (fun z => shapeCast S1x4096x1024 z shapeCasts_S4096x1024_S1x4096x1024)
    (Pipeline.withArrays_arr spec0 launch0.win.arr_inj c _ _ 6)

theorem tail_v12 (c : Dev nD) : Pipeline.afterTail₀ cfgs (dats m) 0 (V0 m) [hostOps1] c main_v12
    = shapeCast S1x4096x1024 ((dats m 0 c).arrAt 7 cfg0.N) shapeCasts_S4096x1024_S1x4096x1024 := by
  unfold Pipeline.afterTail₀
  show StableHlo.after hostOps1 _ (Proc.devRef .tc main_v12) = _
  after_results
  exact congrArg (fun z => shapeCast S1x4096x1024 z shapeCasts_S4096x1024_S1x4096x1024)
    (Pipeline.withArrays_arr spec0 launch0.win.arr_inj c _ _ 7)

/-! ## The results as functions of the arguments -/

theorem hidden_whole (c : Dev nD) :
    shapeCast S1x4096x1024 (hiddenArr (Xc m c) (Hc m c) (Cc m c) (Wxc m c) (Whc m c) (Bc m c)) shapeCasts_S4096x1024_S1x4096x1024
      = newHidden (a0 m c) (a1 m c) (a2 m c) (Wc m c) (bc m c) := by
  have hX : Xc m c = flat (a0 m c) := V_v0 m c
  have hH : Hc m c = flat (a1 m c) := V_v1 m c
  have hC : Cc m c = flat (a2 m c) := V_v2 m c
  have hWx : Wxc m c = leftCols (Wc m c) := V_v6 m c
  have hWh : Whc m c = rightCols (Wc m c) := V_v8 m c
  have hB : Bc m c = vecOf (bc m c) := V_v9 m c
  rw [hX, hH, hC, hWx, hWh, hB]
  funext i
  rw [shapeCast_unflat_apply]
  rfl

theorem cell_whole (c : Dev nD) :
    shapeCast S1x4096x1024 (cellArr (Xc m c) (Hc m c) (Cc m c) (Wxc m c) (Whc m c) (Bc m c)) shapeCasts_S4096x1024_S1x4096x1024
      = newCell (a0 m c) (a1 m c) (a2 m c) (Wc m c) (bc m c) := by
  have hX : Xc m c = flat (a0 m c) := V_v0 m c
  have hH : Hc m c = flat (a1 m c) := V_v1 m c
  have hC : Cc m c = flat (a2 m c) := V_v2 m c
  have hWx : Wxc m c = leftCols (Wc m c) := V_v6 m c
  have hWh : Whc m c = rightCols (Wc m c) := V_v8 m c
  have hB : Bc m c = vecOf (bc m c) := V_v9 m c
  rw [hX, hH, hC, hWx, hWh, hB]
  funext i
  rw [shapeCast_unflat_apply]
  rfl

/-- Every weakly fair execution of the idealized kernel's @main terminates with its first result at the new hidden
    state and its second at the new cell state of the arguments, and the arguments unchanged. -/
theorem run : θ_run defs (onTc (τ := τ) (main (F := Ideal))) ⟨m, fun _ => 0, ρ⟩ fun r => ∀ c : Dev nD,
      r.2.mem ((c.tc : Thread nD τ).loc main_v11) = newHidden (a0 m c) (a1 m c) (a2 m c) (Wc m c) (bc m c)
      ∧ r.2.mem ((c.tc : Thread nD τ).loc main_v12) = newCell (a0 m c) (a1 m c) (a2 m c) (Wc m c) (bc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      ((h c).2 main_v11 (Pipeline.mem_restRefs_of main_v11 (by decide) (by decide))).trans
        ((tail_v11 m c).trans ((congrArg (fun z => shapeCast S1x4096x1024 z shapeCasts_S4096x1024_S1x4096x1024) (final6 m c)).trans (hidden_whole m c))),
      ((h c).2 main_v12 (Pipeline.mem_restRefs_of main_v12 (by decide) (by decide))).trans
        ((tail_v12 m c).trans ((congrArg (fun z => shapeCast S1x4096x1024 z shapeCasts_S4096x1024_S1x4096x1024) (final7 m c)).trans (cell_whole m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.Reference.lean ====
/-
  The reference read on the extended reals, one stage at a time: its one contraction of the two state arrays laid side
  by side against the stacked weights, plus the stacked bias, is the cell's pre-activation array; each gate it spells
  as 1 / (1 + e^(−y)) with the constant one, which is the logistic function; and its last two stages are the new cell
  state and the new hidden state of the whole batch.
-/
import proofs.«106639_j712964571843_1_alg».proof.Proof.Gen.ReferenceIdeal.Read
import proofs.«106639_j712964571843_1_alg».proof.Proof.Cell
import Idealize.ShloMosaic.Lib.IdealHost

noncomputable section

namespace Cert.ReferenceIdeal.Whole

open Cert.ReferenceIdeal Cert.ReferenceIdeal.Gen Cert.ReferenceIdeal.Read
open Idealize.ShloMosaic Idealize.ShloMosaic.ValueIdx Cert.Cell

variable (x0 x1 x2 : S1x4096x1024.Idx → EReal) (x3 x5 x7 x9 : S1024x2048.Idx → EReal) (x4 x6 x8 x10 : S1024.Idx → EReal)

/-! ## The pre-activations -/

theorem ridx_eq (i : S1x4096x4096.Idx) (k : Fin 2048) : ridx_main_v3 i k = ix2 (n0 := 4096) (i 2) k :=
  funext fun a => Fin.ext (by match a with | ⟨0, _⟩ => rfl | ⟨1, _⟩ => rfl)

theorem bidx_eq (i : S1x4096x4096.Idx) : idx_main_v4 (idx_main_v5 i) = ix1 (n := 4096) (i 2) :=
  funext fun a => Fin.ext (by match a with | ⟨0, _⟩ => rfl)

/-- The two state arrays laid side by side read, at one of the first 1024 features, the input, -/
theorem side_left (i : S1x4096x4096.Idx) (k : Fin 1024) :
    val_main_v0 (F := Ideal) x0 x1 (lidx_main_v3 i (lo k)) = x0 (ix3 (0 : Fin 1) (n1 := 4096) (i 1) k) := by
  unfold val_main_v0
  exact concatenate_pair_apply_left (2 : Fin 3) x0 x1 _ (lidx_main_v3 i (lo k)) rfl (ix3 (0 : Fin 1) (n1 := 4096) (i 1) k) (fun b => by
    match b with
    | ⟨0, _⟩ => exact (Nat.lt_one_iff.mp (i 0).isLt).symm
    | ⟨1, _⟩ => rfl
    | ⟨2, _⟩ => rfl)

/-- and at one of the last 1024 the hidden state. -/
theorem side_right (i : S1x4096x4096.Idx) (k : Fin 1024) :
    val_main_v0 (F := Ideal) x0 x1 (lidx_main_v3 i (hi k)) = x1 (ix3 (0 : Fin 1) (n1 := 4096) (i 1) k) := by
  unfold val_main_v0
  exact concatenate_pair_apply_right (2 : Fin 3) x0 x1 _ (lidx_main_v3 i (hi k)) rfl rfl (ix3 (0 : Fin 1) (n1 := 4096) (i 1) k) (fun b hb => by
    match b with
    | ⟨0, _⟩ => exact (Nat.lt_one_iff.mp (i 0).isLt).symm
    | ⟨1, _⟩ => rfl
    | ⟨2, _⟩ => exact absurd rfl hb) (by
    show k.val + 1024 = 1024 + k.val
    omega)

/-- The reference's sum of its contraction and its broadcast bias is the pre-activation array. -/
theorem pre_ref (i : S1x4096x4096.Idx) :
    val_main_v6 (F := Ideal) x0 x1 x3 x4 x5 x6 x7 x8 x9 x10 i = pre (flat x0) (flat x1) (leftCols (stackW x3 x5 x7 x9)) (rightCols (stackW x3 x5 x7 x9)) (vecOf (stackB x4 x6 x8 x10)) (ix2 (n0 := 4096) (i 1) (n1 := 4096) (i 2)) := by
  rw [val_main_v6_apply, val_main_v3_apply, val_main_v5_apply, val_main_v4_apply, bidx_eq]
  simp only [ridx_eq]
  exact pre_flat_apply x0 x1 (stackW x3 x5 x7 x9) (stackB x4 x6 x8 x10) (i 1) (i 2)
    (fun k => val_main_v0 (F := Ideal) x0 x1 (lidx_main_v3 i k)) (side_left x0 x1 i) (side_right x0 x1 i)

/-- The slice that cuts gate 0's columns, read at row `b` and column `j`, is the pre-activation at gate 0's column `j`. -/
theorem slice7 (b : Fin 4096) (j : Fin 1024) :
    val_main_v7 (F := Ideal) x0 x1 x3 x4 x5 x6 x7 x8 x9 x10 (ix3 (0 : Fin 1) b j) = pre (flat x0) (flat x1) (leftCols (stackW x3 x5 x7 x9)) (rightCols (stackW x3 x5 x7 x9)) (vecOf (stackB x4 x6 x8 x10)) (ix2 b (gcol 0 j)) := by
  rw [val_main_v7_apply, pre_ref]
  exact congrArg _ (funext fun a => Fin.ext (by
    match a with
    | ⟨0, _⟩ => rfl
    | ⟨1, _⟩ => show j.val = 0 * 1024 + j.val; omega))

/-- The slice that cuts gate 1's columns, read at row `b` and column `j`, is the pre-activation at gate 1's column `j`. -/
theorem slice8 (b : Fin 4096) (j : Fin 1024) :
    val_main_v8 (F := Ideal) x0 x1 x3 x4 x5 x6 x7 x8 x9 x10 (ix3 (0 : Fin 1) b j) = pre (flat x0) (flat x1) (leftCols (stackW x3 x5 x7 x9)) (rightCols (stackW x3 x5 x7 x9)) (vecOf (stackB x4 x6 x8 x10)) (ix2 b (gcol 1 j)) := by
  rw [val_main_v8_apply, pre_ref]
  exact congrArg _ (funext fun a => Fin.ext (by
    match a with
    | ⟨0, _⟩ => rfl
    | ⟨1, _⟩ => show 1024 + j.val = 1 * 1024 + j.val; omega))

/-- The slice that cuts gate 2's columns, read at row `b` and column `j`, is the pre-activation at gate 2's column `j`. -/
theorem slice9 (b : Fin 4096) (j : Fin 1024) :
    val_main_v9 (F := Ideal) x0 x1 x3 x4 x5 x6 x7 x8 x9 x10 (ix3 (0 : Fin 1) b j) = pre (flat x0) (flat x1) (leftCols (stackW x3 x5 x7 x9)) (rightCols (stackW x3 x5 x7 x9)) (vecOf (stackB x4 x6 x8 x10)) (ix2 b (gcol 2 j)) := by
  rw [val_main_v9_apply, pre_ref]
  exact congrArg _ (funext fun a => Fin.ext (by
    match a with
    | ⟨0, _⟩ => rfl
    | ⟨1, _⟩ => show 2048 + j.val = 2 * 1024 + j.val; omega))

/-- The slice that cuts gate 3's columns, read at row `b` and column `j`, is the pre-activation at gate 3's column `j`. -/
theorem slice10 (b : Fin 4096) (j : Fin 1024) :
    val_main_v10 (F := Ideal) x0 x1 x3 x4 x5 x6 x7 x8 x9 x10 (ix3 (0 : Fin 1) b j) = pre (flat x0) (flat x1) (leftCols (stackW x3 x5 x7 x9)) (rightCols (stackW x3 x5 x7 x9)) (vecOf (stackB x4 x6 x8 x10)) (ix2 b (gcol 3 j)) := by
  rw [val_main_v10_apply, pre_ref]
  exact congrArg _ (funext fun a => Fin.ext (by
    match a with
    | ⟨0, _⟩ => rfl
    | ⟨1, _⟩ => show 3072 + j.val = 3 * 1024 + j.val; omega))

/-! ## The gates -/

/-- One over one plus the exponential of the negation, with the constant one, is the logistic function. -/
theorem gate_ref (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  rw [Ideal.ofBits_one_f32]

theorem sigma7 (i : S1x4096x1024.Idx) :
    val_main_v16 (F := Ideal) x0 x1 x3 x4 x5 x6 x7 x8 x9 x10 i = Ideal.logistic (val_main_v7 (F := Ideal) x0 x1 x3 x4 x5 x6 x7 x8 x9 x10 i) := by
  rw [val_main_v16_apply, val_main_v15_apply, val_main_cst_0_apply, val_main_v14_apply, val_main_v13_apply, val_main_cst_apply, val_main_v12_apply, val_main_v11_apply]
  exact gate_ref _

theorem sigma8 (i : S1x4096x1024.Idx) :
    val_main_v22 (F := Ideal) x0 x1 x3 x4 x5 x6 x7 x8 x9 x10 i = Ideal.logistic (val_main_v8 (F := Ideal) x0 x1 x3 x4 x5 x6 x7 x8 x9 x10 i) := by
  rw [val_main_v22_apply, val_main_v21_apply, val_main_cst_2_apply, val_main_v20_apply, val_main_v19_apply, val_main_cst_1_apply, val_main_v18_apply, val_main_v17_apply]
  exact gate_ref _

theorem sigma10 (i : S1x4096x1024.Idx) :
    val_main_v29 (F := Ideal) x0 x1 x3 x4 x5 x6 x7 x8 x9 x10 i = Ideal.logistic (val_main_v10 (F := Ideal) x0 x1 x3 x4 x5 x6 x7 x8 x9 x10 i) := by
  rw [val_main_v29_apply, val_main_v28_apply, val_main_cst_4_apply, val_main_v27_apply, val_main_v26_apply, val_main_cst_3_apply, val_main_v25_apply, val_main_v24_apply]
  exact gate_ref _

/-! ## The two results -/

/-- The reference's new cell state is the specification's, entry by entry. -/
theorem cell_at (b : Fin 4096) (j : Fin 1024) :
    val_main_v32 (F := Ideal) x0 x1 x2 x3 x4 x5 x6 x7 x8 x9 x10 (ix3 (0 : Fin 1) b j)
      = newCell x0 x1 x2 (stackW x3 x5 x7 x9) (stackB x4 x6 x8 x10) (ix3 (0 : Fin 1) b j) := by
  rw [val_main_v32_apply, val_main_v30_apply, val_main_v31_apply, sigma8, sigma7, val_main_v23_apply, slice8, slice7, slice9]
  rfl

/-- The reference's new hidden state is the specification's, entry by entry. -/
theorem hidden_at (b : Fin 4096) (j : Fin 1024) :
    val_main_v34 (F := Ideal) x0 x1 x2 x3 x4 x5 x6 x7 x8 x9 x10 (ix3 (0 : Fin 1) b j)
      = newHidden x0 x1 x2 (stackW x3 x5 x7 x9) (stackB x4 x6 x8 x10) (ix3 (0 : Fin 1) b j) := by
  rw [val_main_v34_apply, sigma10, slice10, val_main_v33_apply, cell_at]
  rfl

theorem exists_ix3 (i : S1x4096x1024.Idx) : ∃ (b : Fin 4096) (j : Fin 1024), i = ix3 (0 : Fin 1) b j :=
  ⟨i 1, i 2, (eq_ix3 i).trans (congrArg (fun u : Fin 1 => ix3 u (n1 := 4096) (i 1) (n2 := 1024) (i 2)) (Subsingleton.elim _ _))⟩

theorem cell_eq : val_main_v32 (F := Ideal) x0 x1 x2 x3 x4 x5 x6 x7 x8 x9 x10 = newCell x0 x1 x2 (stackW x3 x5 x7 x9) (stackB x4 x6 x8 x10) := by
  funext i
  obtain ⟨b, j, rfl⟩ := exists_ix3 i
  exact cell_at x0 x1 x2 x3 x5 x7 x9 x4 x6 x8 x10 b j

theorem hidden_eq : val_main_v34 (F := Ideal) x0 x1 x2 x3 x4 x5 x6 x7 x8 x9 x10 = newHidden x0 x1 x2 (stackW x3 x5 x7 x9) (stackB x4 x6 x8 x10) := by
  funext i
  obtain ⟨b, j, rfl⟩ := exists_ix3 i
  exact hidden_at x0 x1 x2 x3 x5 x7 x9 x4 x6 x8 x10 b j

end Cert.ReferenceIdeal.Whole

end
-- ==== Proof.lean ====
/-
  One step of a long short-term memory cell, as a pipelined kernel over sixteen blocks of 256 rows against a plain
  array program.

  The kernel multiplies the input and the hidden state separately against the left and the right half of the
  stacked gate weights and adds the two products; the reference lays the input and the hidden state side by side
  and contracts once against the whole stacked weights.  On the extended reals the two agree because a sum over
  2048 features is the sum over the first 1024 plus the sum over the last 1024 — a law of addition alone, so the
  precondition that the inputs are finite is never opened.  The kernel's logistic gate is the reference's
  1 / (1 + e^(−y)); tanh and the products and sums that make the new cell state and the new hidden state are the
  same on both sides; a narrowing of the float format is the identity.  The kernel computes a block of rows at a
  time, and since each row of the result depends on that row of the states only, the sixteen blocks it writes back
  are the rows of one whole-array function.

  The three frames: the kernel's and the idealized kernel's @main (host lines, the region, host lines) run to the
  end with no fault and leave the arguments as launched, at the word level and on the extended reals alike; the
  reference's frame is its run with the results forgotten.  The idealization rewrote no operation, so there is
  nothing to preserve.
-/
import proofs.«106639_j712964571843_1_alg».proof.Defs
import proofs.«106639_j712964571843_1_alg».proof.Proof.Gen.Kernel
import proofs.«106639_j712964571843_1_alg».proof.Proof.Gen.KernelIdeal
import proofs.«106639_j712964571843_1_alg».proof.Proof.Gen.ReferenceIdeal
import proofs.«106639_j712964571843_1_alg».proof.Proof.Gen.ReferenceIdeal.Run
import proofs.«106639_j712964571843_1_alg».proof.Proof.Gen.ReferenceIdeal.Read
import proofs.«106639_j712964571843_1_alg».proof.Proof.Gen.Pre_finite_inputs
import proofs.«106639_j712964571843_1_alg».proof.Proof.KernelFrame
import proofs.«106639_j712964571843_1_alg».proof.Proof.KernelIdealFrame
import proofs.«106639_j712964571843_1_alg».proof.Proof.KernelValue
import proofs.«106639_j712964571843_1_alg».proof.Proof.Reference

noncomputable section

namespace Cert.Proof

open Idealize.ShloMosaic Idealize.ShloMosaic.TcCoe Idealize.SL.Sem Cert.Cell

theorem frame_k : Cert.frame_Kernel := fun m ρ _ => Cert.Kernel.Around.frame m ρ

theorem frame_ki : Cert.frame_KernelIdeal := fun m ρ _ => Cert.KernelIdeal.Around.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the new hidden state and the new cell state of the same arguments. -/
theorem algebraic : Cert.algebraic_KernelIdeal_ReferenceIdeal := by
  intro m ρ m' ρ' _ hagree
  refine ⟨fun c => newHidden (Cert.KernelIdeal.Blocks.a0 m c) (Cert.KernelIdeal.Blocks.a1 m c) (Cert.KernelIdeal.Blocks.a2 m c) (Cert.KernelIdeal.Blocks.Wc m c) (Cert.KernelIdeal.Blocks.bc m c),
    fun c => newCell (Cert.KernelIdeal.Blocks.a0 m c) (Cert.KernelIdeal.Blocks.a1 m c) (Cert.KernelIdeal.Blocks.a2 m c) (Cert.KernelIdeal.Blocks.Wc m c) (Cert.KernelIdeal.Blocks.bc m c),
    Cert.KernelIdeal.Whole.run m ρ, ?_⟩
  refine (θ_run Cert.ReferenceIdeal.defs _ _).mono (fun r h c => ⟨?_, ?_, (h c).2.2⟩) (Cert.ReferenceIdeal.Value.run (F := Ideal) m' ρ')
  · obtain ⟨h0, h1, h2, h3, h4, h5, h6, h7, h8, h9, h10⟩ := hagree c
    rw [(h c).1, Cert.ReferenceIdeal.Read.val_main_v34_eq, Cert.ReferenceIdeal.Whole.hidden_eq, h0, h1, h2, h3, h4, h5, h6, h7, h8, h9, h10]
  · obtain ⟨h0, h1, h2, h3, h4, h5, h6, h7, h8, h9, h10⟩ := hagree c
    rw [(h c).2.1, Cert.ReferenceIdeal.Read.val_main_v32_eq, Cert.ReferenceIdeal.Whole.cell_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
